-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x512 : Shape := ⟨2, ![4096, 512]⟩
abbrev S4096 : Shape := ⟨1, ![4096]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel

variable [Facts]

def fn {F : FTy → Type} [FloatOps F] (main_arg0 : FVec F S4096x512 .f32) (main_arg1 : FVec F S4096x512 .f32) (main_arg2 : IVec S4096 32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S4096x512 .f32 := Host.absf main_arg1
  let main_cst_0 : FVec F S_ .f32 := constant S_ .f32 0x7F800000#32
  let main_v5 : FVec F S4096x512 .f32 := broadcastInDim S4096x512 ![] bcast_S_S4096x512 main_cst_0
  let main_v6 : IVec S4096x512 1 := cmpf .olt main_v4 main_v5
  let main_c_1 : IVec S_ 1 := constantI S_ 1 1#1
  let main_v7 : IVec S_ 1 := (fun x v => Host.reduce IntOp.andi x v reducesTo_S4096x512_S_d0_1 h_S_) main_v6 main_c_1
  let main_v8 : IVec S_ 1 := andi main_v3 main_v7
  main_v8
-- ==== Kernel.lean ====
abbrev S4096x512 : Shape := ⟨2, ![4096, 512]⟩
abbrev S4096 : Shape := ⟨1, ![4096]⟩
abbrev S_ : Shape := ⟨0, ![]⟩
abbrev S1x4096 : Shape := ⟨2, ![1, 4096]⟩
abbrev S4096x1 : Shape := ⟨2, ![4096, 1]⟩
abbrev S256x512 : Shape := ⟨2, ![256, 512]⟩
abbrev S256x1 : Shape := ⟨2, ![256, 1]⟩
abbrev S256x4096 : Shape := ⟨2, ![256, 4096]⟩
abbrev S256 : Shape := ⟨1, ![256]⟩

abbrev nBuf : Space → Nat
  | .hbm => 16
  | .vmem => 9
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096, .i32⟩
  | .hbm, ⟨3, _⟩ => ⟨S4096x512, .bf16⟩
  | .hbm, ⟨4, _⟩ => ⟨S4096x512, .f32⟩
  | .hbm, ⟨5, _⟩ => ⟨S_, .f32⟩
  | .hbm, ⟨6, _⟩ => ⟨S4096, .f32⟩
  | .hbm, ⟨7, _⟩ => ⟨S4096, .f32⟩
  | .hbm, ⟨8, _⟩ => ⟨S1x4096, .f32⟩
  | .hbm, ⟨9, _⟩ => ⟨S4096x1, .i32⟩
  | .hbm, ⟨10, _⟩ => ⟨S1x4096, .i32⟩
  | .hbm, ⟨11, _⟩ => ⟨S4096x1, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .local _ .vmem, ⟨0, _⟩ => ⟨S256x512, .f32⟩
  | .local _ .vmem, ⟨1, _⟩ => ⟨S256x512, .f32⟩
  | .local _ .vmem, ⟨2, _⟩ => ⟨S4096x512, .bf16⟩
  | .local _ .vmem, ⟨3, _⟩ => ⟨S1x4096, .f32⟩
  | .local _ .vmem, ⟨4, _⟩ => ⟨S256x1, .i32⟩
  | .local _ .vmem, ⟨5, _⟩ => ⟨S256x1, .i32⟩
  | .local _ .vmem, ⟨6, _⟩ => ⟨S1x4096, .i32⟩
  | .local _ .vmem, ⟨7, _⟩ => ⟨S256x1, .f32⟩
  | .local _ .vmem, ⟨8, _⟩ => ⟨S256x1, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_v0 : Ref sig .tc := ⟨.hbm, 4, rfl⟩
abbrev main_call0_cst : Ref sig .tc := ⟨.hbm, 5, rfl⟩
abbrev main_call0_v1 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![16], ![false]⟩

def k0_mult1 (i : grid0.Coords) : BitVec 32 :=
  let arg0 : BitVec 32 := BitVec.ofNat 32 (i 0).val
  let c256_i32 : BitVec 32 := 256#32
  let v0 : BitVec 32 := Scalar.muli arg0 c256_i32
  v0
def k0_off1 (i : grid0.Coords) : Fin 2 → Nat :=
  let arg0 : BitVec 32 := BitVec.ofNat 32 (i 0).val
  let c256_i32 : BitVec 32 := 256#32
  let v0 : BitVec 32 := Scalar.muli arg0 c256_i32
  let v1 : BitVec 32 := v0
  let v6 : Index := Scalar.indexCast v1
  let c0_3 : Index := 0#32
  ![v6.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x4096 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bitsLt_bf16_f32 : FTy.bits .bf16 < FTy.bits .f32
  reducesTo_S4096x512_S4096_d1 : S4096x512.ReducesTo [1] S4096
  h_S_ : 0 < S_.numel
  shapeCasts_S4096_S1x4096 : S4096.ShapeCasts S1x4096
  shapeCasts_S4096_S4096x1 : S4096.ShapeCasts S4096x1
  inb_S256x512_S256x512_0_0 : ∀ a, (![0, 0] : Fin 2 → Nat) a + S256x512.size a ≤ S256x512.size a
  h_S256x512 : 0 < S256x512.numel
  inb_S4096x512_S4096x512_0_0 : ∀ a, (![0, 0] : Fin 2 → Nat) a + S4096x512.size a ≤ S4096x512.size a
  h_S4096x512 : 0 < S4096x512.numel
  shapeCasts_S4096x512_S4096x512 : S4096x512.ShapeCasts S4096x512
  shapeCasts_S256x512_S256x512 : S256x512.ShapeCasts S256x512
  reduces_S256x4096_S256 : S256x4096.Reduces [1] S256
  shapeCasts_S256_S256x1 : S256.ShapeCasts S256x1
  broadcasts_S256x1_S256x4096 : S256x1.Broadcasts S256x4096
  reduces_S256x512_S256 : S256x512.Reduces [1] S256
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  inb_S256x1_S256x1_0_0 : ∀ a, (![0, 0] : Fin 2 → Nat) a + S256x1.size a ≤ S256x1.size a
  h_S256x1 : 0 < S256x1.numel
  shapeCasts_S256x1_S256x1 : S256x1.ShapeCasts S256x1
  reducesTo_S4096x1_S_d0_1 : S4096x1.ReducesTo [0, 1] S_
  dot_S256x512_S4096x512_S256x4096_1_1_0_0_n_n_wf : DotDims.WF S256x512 S4096x512 S256x4096 [1] [1] [0] [0] [] []
  hrank0 : 0 < grid0.rank
  k0_mult1_dvd : ∀ i : grid0.Coords, 256 ∣ (k0_mult1 i).toNat
  k0_off1_inb : ∀ i : grid0.Coords, ∀ a, (k0_off1 i) a + S256x512.size a ≤ S4096x512.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x512.size a ≤ S4096x512.size a
  hwx0_0 : ∀ i : grid0.Coords, EltTy.bits .f32 = 32 ∨ (Rect.block (s := S4096x512) S256x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x512.size a ≤ S4096x512.size a
  hwx0_1 : ∀ i : grid0.Coords, EltTy.bits .bf16 = 32 ∨ (Rect.block (s := S4096x512) S4096x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x4096.size a ≤ S1x4096.size a
  hwx0_2 : ∀ i : grid0.Coords, EltTy.bits .f32 = 32 ∨ (Rect.block (s := S1x4096) S1x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x1.size a ≤ S4096x1.size a
  hwx0_3 : ∀ i : grid0.Coords, EltTy.bits .i32 = 32 ∨ (Rect.block (s := S4096x1) S256x1.size (cc0_transform_3 i) (hinb0_3 i)).WholeWords (EltTy.packing .i32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x4096.size a ≤ S1x4096.size a
  hwx0_4 : ∀ i : grid0.Coords, EltTy.bits .i32 = 32 ∨ (Rect.block (s := S1x4096) S1x4096.size (cc0_transform_4 i) (hinb0_4 i)).WholeWords (EltTy.packing .i32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x1.size a ≤ S4096x1.size a
  hwx0_5 : ∀ i : grid0.Coords, EltTy.bits .f32 = 32 ∨ (Rect.block (s := S4096x1) S256x1.size (cc0_transform_5 i) (hinb0_5 i)).WholeWords (EltTy.packing .f32)

variable [Facts₀]

def dot_S256x512_S4096x512_S256x4096_1_1_0_0_n_n : DotDims S256x512 S4096x512 S256x4096 where
  lhsContracting := [1]
  rhsContracting := [1]
  lhsNonContracting := [0]
  rhsNonContracting := [0]
  lhsBatch := []
  rhsBatch := []
  wf := dot_S256x512_S4096x512_S256x4096_1_1_0_0_n_n_wf

abbrev win0_0 : Pipeline.Window sig grid0 :=
  Pipeline.Window.ofSpec (Memref.whole main_arg0) S256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S4096x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S256x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S256x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4096x512 : Shape := ⟨2, ![4096, 512]⟩
abbrev S4096 : Shape := ⟨1, ![4096]⟩
abbrev S4096x4096 : Shape := ⟨2, ![4096, 4096]⟩
abbrev S_ : Shape := ⟨0, ![]⟩
abbrev S4096x1 : Shape := ⟨2, ![4096, 1]⟩
abbrev S1x4096 : Shape := ⟨2, ![1, 4096]⟩

abbrev nBuf : Space → Nat
  | .hbm => 60
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096, .i32⟩
  | .hbm, ⟨3, _⟩ => ⟨S4096x4096, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S4096x4096, .f32⟩
  | .hbm, ⟨11, _⟩ => ⟨S4096x4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x4096, .f32⟩
  | .hbm, ⟨17, _⟩ => ⟨S4096x4096, .f32⟩
  | .hbm, ⟨18, _⟩ => ⟨S4096x512, .f32⟩
  | .hbm, ⟨19, _⟩ => ⟨S_, .f32⟩
  | .hbm, ⟨20, _⟩ => ⟨S4096, .f32⟩
  | .hbm, ⟨21, _⟩ => ⟨S4096, .f32⟩
  | .hbm, ⟨22, _⟩ => ⟨S4096x512, .f32⟩
  | .hbm, ⟨23, _⟩ => ⟨S_, .f32⟩
  | .hbm, ⟨24, _⟩ => ⟨S4096, .f32⟩
  | .hbm, ⟨25, _⟩ => ⟨S4096, .f32⟩
  | .hbm, ⟨26, _⟩ => ⟨S4096x4096, .f32⟩
  | .hbm, ⟨27, _⟩ => ⟨S4096x1, .f32⟩
  | .hbm, ⟨28, _⟩ => ⟨S1x4096, .f32⟩
  | .hbm, ⟨29, _⟩ => ⟨S4096x4096, .f32⟩
  | .hbm, ⟨30, _⟩ => ⟨S4096x4096, .f32⟩
  | .hbm, ⟨31, _⟩ => ⟨S4096x4096, .f32⟩
  | .hbm, ⟨32, _⟩ => ⟨S_, .f32⟩
  | .hbm, ⟨33, _⟩ => ⟨S4096x4096, .f32⟩
  | .hbm, ⟨34, _⟩ => ⟨S4096x4096, .f32⟩
  | .hbm, ⟨35, _⟩ => ⟨S4096x4096, .f32⟩
  | .hbm, ⟨36, _⟩ => ⟨S4096x1, .i32⟩
  | .hbm, ⟨37, _⟩ => ⟨S1x4096, .i32⟩
  | .hbm, ⟨38, _⟩ => ⟨S4096x4096, .i32⟩
  | .hbm, ⟨39, _⟩ => ⟨S4096x4096, .i32⟩
  | .hbm, ⟨40, _⟩ => ⟨S4096x4096, .i1⟩
  | .hbm, ⟨41, _⟩ => ⟨S4096x4096, .i32⟩
  | .hbm, ⟨42, _⟩ => ⟨S4096x4096, .i32⟩
  | .hbm, ⟨43, _⟩ => ⟨S_, .i32⟩
  | .hbm, ⟨44, _⟩ => ⟨S4096x4096, .i32⟩
  | .hbm, ⟨45, _⟩ => ⟨S4096x4096, .i32⟩
  | .hbm, ⟨46, _⟩ => ⟨S4096x4096, .i1⟩
  | .hbm, ⟨47, _⟩ => ⟨S4096x4096, .i1⟩
  | .hbm, ⟨48, _⟩ => ⟨S_, .f32⟩
  | .hbm, ⟨49, _⟩ => ⟨S4096x4096, .f32⟩
  | .hbm, ⟨50, _⟩ => ⟨S4096x4096, .f32⟩
  | .hbm, ⟨51, _⟩ => ⟨S4096x4096, .f32⟩
  | .hbm, ⟨52, _⟩ => ⟨S_, .f32⟩
  | .hbm, ⟨53, _⟩ => ⟨S4096x4096, .f32⟩
  | .hbm, ⟨54, _⟩ => ⟨S4096x4096, .f32⟩
  | .hbm, ⟨55, _⟩ => ⟨S4096x4096, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_call0_v0 : Ref sig .tc := ⟨.hbm, 18, rfl⟩
abbrev main_call0_cst : Ref sig .tc := ⟨.hbm, 19, rfl⟩
abbrev main_call0_v1 : Ref sig .tc := ⟨.hbm, 20, rfl⟩
abbrev main_v12 : Ref sig .tc := ⟨.hbm, 21, rfl⟩
abbrev main_call1_v0 : Ref sig .tc := ⟨.hbm, 22, rfl⟩
abbrev main_call1_cst : Ref sig .tc := ⟨.hbm, 23, rfl⟩
abbrev main_call1_v1 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_2 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_c : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_3 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_4 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_5 : Ref sig .tc := ⟨.hbm, 56, rfl⟩
abbrev main_v40 : Ref sig .tc := ⟨.hbm, 57, rfl⟩
abbrev main_cst_6 : Ref sig .tc := ⟨.hbm, 58, rfl⟩
abbrev main_v41 : Ref sig .tc := ⟨.hbm, 59, rfl⟩

abbrev nD : Nat := 1
abbrev τ : Topo := Topo.v7x

variable {F : FTy → Type} [FloatOps F]

class Facts₀ : Prop where
  reducesTo_S4096x4096_S4096_d1 : S4096x4096.ReducesTo [1] S4096
  h_S_ : 0 < S_.numel
  bcast_S4096_S4096x1_0 : S4096.BroadcastsInDim S4096x1 (![0] : Fin 1 → Fin S4096x1.rank)
  bcast_S4096x1_S4096x4096_0_1 : S4096x1.BroadcastsInDim S4096x4096 (![0, 1] : Fin 2 → Fin S4096x4096.rank)
  bcast_S_S4096x1 : S_.BroadcastsInDim S4096x1 (![] : Fin 0 → Fin S4096x1.rank)
  reducesTo_S4096x512_S4096_d1 : S4096x512.ReducesTo [1] S4096
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  bcast_S_S4096x4096 : S_.BroadcastsInDim S4096x4096 (![] : Fin 0 → Fin S4096x4096.rank)
  reducesTo_S4096x4096_S_d0_1 : S4096x4096.ReducesTo [0, 1] S_
  dot_S4096x512_S4096x512_S4096x4096_1_1_0_0_n_n_wf : DotDims.WF S4096x512 S4096x512 S4096x4096 [1] [1] [0] [0] [] []

variable [Facts₀]

def dot_S4096x512_S4096x512_S4096x4096_1_1_0_0_n_n : DotDims S4096x512 S4096x512 S4096x4096 where
  lhsContracting := [1]
  rhsContracting := [1]
  lhsNonContracting := [0]
  rhsNonContracting := [0]
  lhsBatch := []
  rhsBatch := []
  wf := dot_S4096x512_S4096x512_S4096x4096_1_1_0_0_n_n_wf

class Facts : Prop extends Facts₀ where

variable [Facts]
-- ==== Proof.PairLoss.lean ====
/-
  The quantity both programs compute, written once over the extended reals.

  Given image features x and text features t (4096 rows of 512 entries each) and one instruction word per row:
  * the text similarity of rows i and j is the inner product of t's rows i and j; each row i of it is
    normalised by its own minimum and maximum over j into a margin
        weight i j = (sim i j - lo i) / (hi i - lo i + 1e-6),
    the minimum and maximum taken as folds from +infinity and -infinity;
  * the cosine of image row i against text row j is their inner product over the product of the two rows'
    Euclidean norms, the denominator floored at 1e-8;
  * a pair (i, j) is aligned when the two rows carry the same instruction word; an aligned pair costs
    1 - cosine, any other pair max 0 (cosine - weight);
  * the loss is the sum of all 4096 x 4096 pair costs, taken row by row, over 2^24.
  The three small constants are kept as the single-precision words both programs print: the same word on
  both sides is never evaluated.
-/
import Idealize.ShloMosaic.PureOps.Ideal
import Idealize.ShloMosaic.PureOps.Ideal.Laws
import Idealize.ShloMosaic.Lib.ValueIdx

noncomputable section

namespace Cert.PairLoss

open Idealize.ShloMosaic Idealize.ShloMosaic.ValueIdx

/-- A feature matrix: 4096 rows of 512 extended reals. -/
abbrev Feat := (⟨2, ![4096, 512]⟩ : Shape).Idx → EReal
/-- One instruction word per row. -/
abbrev Ids := (⟨1, ![4096]⟩ : Shape).Idx → BitVec 32

/-- The inner product of rows i and j of the text features. -/
def sim (t : Feat) (i j : Fin 4096) : EReal := ∑ k : Fin 512, t (ix2 i k) * t (ix2 j k)

/-- The least similarity in row i, folded from +infinity. -/
def lo (t : Feat) (i : Fin 4096) : EReal :=
  (Finset.univ : Finset (Fin 4096)).fold min (Ideal.ofBits .f32 0x7F800000#32) (fun j => sim t i j)

/-- The greatest similarity in row i, folded from -infinity. -/
def hi (t : Feat) (i : Fin 4096) : EReal :=
  (Finset.univ : Finset (Fin 4096)).fold max (Ideal.ofBits .f32 0xFF800000#32) (fun j => sim t i j)

/-- The margin of the pair (i, j): row i's similarities rescaled by the row's own range. -/
def weight (t : Feat) (i j : Fin 4096) : EReal :=
  Ideal.div (sim t i j - lo t i) (hi t i - lo t i + Ideal.ofBits .f32 0x358637BD#32)

/-- The Euclidean norm of row i. -/
def norm (y : Feat) (i : Fin 4096) : EReal := Ideal.sqrt (∑ k : Fin 512, y (ix2 i k) * y (ix2 i k))

/-- The inner product of image row i and text row j. -/
def dots (x t : Feat) (i j : Fin 4096) : EReal := ∑ k : Fin 512, x (ix2 i k) * t (ix2 j k)

/-- The cosine of image row i against text row j, its denominator floored. -/
def cosine (x t : Feat) (i j : Fin 4096) : EReal :=
  Ideal.div (dots x t i j) (max (norm x i * norm t j) (Ideal.ofBits .f32 0x322BCC77#32))

/-- The cost of the pair (i, j): one minus the cosine when the rows carry the same instruction word,
    otherwise the cosine's excess over the margin, floored at zero. -/
def pair (x t : Feat) (s : Ids) (i j : Fin 4096) : EReal :=
  Scalar.select (IntOp.cmpi .eq (s (ix1 i)) (s (ix1 j)))
    (Ideal.ofBits .f32 0x3F800000#32 - cosine x t i j)
    (max 0 (cosine x t i j - weight t i j))

/-- The cost of row i: its 4096 pairs summed. -/
def rowLoss (x t : Feat) (s : Ids) (i : Fin 4096) : EReal := ∑ j : Fin 4096, pair x t s i j

/-- The loss: the rows' costs summed, over 2^24. -/
def meanLoss (x t : Feat) (s : Ids) : EReal :=
  Ideal.div (∑ i : Fin 4096, rowLoss x t s i) (Ideal.ofBits .f32 0x4B800000#32)

end Cert.PairLoss

end
-- ==== Proof.RefLoss.lean ====
/-
  The reference program computes the pair loss.

  Read one operation at a time, the reference's stages are identified with the quantities of the
  specification: its first contraction is the text similarity, the two row reductions are the row
  minimum and maximum (folds from +infinity and -infinity), their rescaling is the margin, the two
  square-rooted row sums are the Euclidean norms, the second contraction is the inner product of an
  image row and a text row, their floored quotient is the cosine, the comparison of instruction words
  (with the diagonal, where it holds anyway) is the alignment mask, the select is the pair cost, and
  the total sum over the 4096 x 4096 grid, taken as a double sum row by row and divided by 2^24, is
  the mean loss.
-/
import proofs.«111663_j63952063038062_2_alg».proof.Proof.Gen.ReferenceIdeal.Read
import proofs.«111663_j63952063038062_2_alg».proof.Proof.PairLoss

noncomputable section

namespace Cert.RefLoss

open Cert.ReferenceIdeal Cert.ReferenceIdeal.Gen Cert.ReferenceIdeal.Read Cert.PairLoss
open Idealize.ShloMosaic Idealize.ShloMosaic.ValueIdx Idealize.ShloMosaic.StableHlo

/-- A 4096 x 512 single-precision array at the ideal instance: a feature matrix. -/
abbrev FeatBuf := (⟨S4096x512, .f32⟩ : BufTy).Contents (Elt Ideal)
/-- A 4096-entry array of 32-bit words: the instruction words. -/
abbrev IdsBuf := (⟨S4096, .i32⟩ : BufTy).Contents (Elt Ideal)

/-- The first contraction at (i, j) is the inner product of text rows i and j. -/
theorem v0_eq (x1 : FeatBuf) (i j : Fin 4096) : val_main_v0 (F := Ideal) x1 (ix2 i j) = sim x1 i j := by
  rw [val_main_v0_apply]
  unfold sim
  refine Finset.sum_congr rfl fun k _ => ?_
  congr 1 <;> exact congrArg x1 (funext fun a => Fin.ext (by match a with | ⟨0, _⟩ => rfl | ⟨1, _⟩ => rfl))

theorem red_d1 : S4096x4096.Reduces [1] S4096 := by decide

/-- The row minimum: the min-reduction over the second axis, from +infinity, is the fold of min over the row. -/
theorem v1_eq (x1 : FeatBuf) (i : Fin 4096) : val_main_v1 (F := Ideal) x1 (ix1 i) = lo x1 i := by
  unfold val_main_v1
  rw [Host.reduce_eq_fold_single _ _ _ reducesTo_S4096x4096_S4096_d1 red_d1 h_S_]
  unfold lo
  have hf : (val_main_v0 (F := Ideal) x1 ∘ red_d1.lift (ix1 i)) = fun j : Fin 4096 => sim x1 i j := by
    refine funext fun j : Fin 4096 => ?_
    show val_main_v0 (F := Ideal) x1 (red_d1.lift (ix1 i) j) = sim x1 i j
    rw [← v0_eq]
    exact congrArg _ (funext fun a => Fin.ext (by match a with | ⟨0, _⟩ => rfl | ⟨1, _⟩ => rfl))
  rw [hf]
  rfl

/-- The row maximum: the max-reduction over the second axis, from -infinity, is the fold of max over the row. -/
theorem v3_eq (x1 : FeatBuf) (i : Fin 4096) : val_main_v3 (F := Ideal) x1 (ix1 i) = hi x1 i := by
  unfold val_main_v3
  rw [Host.reduce_eq_fold_single _ _ _ reducesTo_S4096x4096_S4096_d1 red_d1 h_S_]
  unfold hi
  have hf : (val_main_v0 (F := Ideal) x1 ∘ red_d1.lift (ix1 i)) = fun j : Fin 4096 => sim x1 i j := by
    refine funext fun j : Fin 4096 => ?_
    show val_main_v0 (F := Ideal) x1 (red_d1.lift (ix1 i) j) = sim x1 i j
    rw [← v0_eq]
    exact congrArg _ (funext fun a => Fin.ext (by match a with | ⟨0, _⟩ => rfl | ⟨1, _⟩ => rfl))
  rw [hf]
  rfl

/-- The margin: row i's similarities less the row minimum, over the row's range plus the small constant. -/
theorem v11_eq (x1 : FeatBuf) (i j : Fin 4096) : val_main_v11 (F := Ideal) x1 (ix2 i j) = weight x1 i j := by
  have e1 : idx_main_v2 (idx_main_v5 (ix2 i j)) = ix1 i :=
    funext fun a => Fin.ext (by match a with | ⟨0, _⟩ => rfl)
  have e3 : idx_main_v4 (idx_main_v10 (ix2 i j)) = ix1 i :=
    funext fun a => Fin.ext (by match a with | ⟨0, _⟩ => rfl)
  rw [val_main_v11_apply, val_main_v6_apply, val_main_v10_apply, val_main_v9_apply, val_main_v7_apply,
    val_main_v8_apply, val_main_v5_apply, val_main_v4_apply, val_main_v2_apply,
    val_main_cst_1_apply, e1, e3, v0_eq, v1_eq, v3_eq]
  rfl

/-- The Euclidean norm of an image row: the square root of the row's sum of squares, the sum started from zero. -/
theorem v12_eq (x0 : FeatBuf) (i : Fin 4096) : val_main_v12 (F := Ideal) x0 (ix1 i) = norm x0 i := by
  rw [val_main_v12_apply, val_main_call0_v1_apply, val_main_call0_cst_apply]
  unfold PairLoss.norm
  rw [Ideal.hostUnary_sqrt_def, Ideal.ofBits_def, Ideal.ofBits_zero_f32, zero_add]
  refine congrArg Ideal.sqrt (Finset.sum_congr rfl fun k _ => ?_)
  have e : idx_main_call0_v1 (ix1 i) k = ix2 i k :=
    funext fun a => Fin.ext (by match a with | ⟨0, _⟩ => rfl | ⟨1, _⟩ => rfl)
  rw [val_main_call0_v0_apply, Ideal.mulf_def, e]

/-- The Euclidean norm of a text row. -/
theorem v13_eq (x1 : FeatBuf) (i : Fin 4096) : val_main_v13 (F := Ideal) x1 (ix1 i) = norm x1 i := by
  rw [val_main_v13_apply, val_main_call1_v1_apply, val_main_call1_cst_apply]
  unfold PairLoss.norm
  rw [Ideal.hostUnary_sqrt_def, Ideal.ofBits_def, Ideal.ofBits_zero_f32, zero_add]
  refine congrArg Ideal.sqrt (Finset.sum_congr rfl fun k _ => ?_)
  have e : idx_main_call1_v1 (ix1 i) k = ix2 i k :=
    funext fun a => Fin.ext (by match a with | ⟨0, _⟩ => rfl | ⟨1, _⟩ => rfl)
  rw [val_main_call1_v0_apply, Ideal.mulf_def, e]

/-- The second contraction at (i, j) is the inner product of image row i and text row j. -/
theorem v14_eq (x0 x1 : FeatBuf) (i j : Fin 4096) : val_main_v14 (F := Ideal) x0 x1 (ix2 i j) = dots x0 x1 i j := by
  rw [val_main_v14_apply]
  unfold dots
  refine Finset.sum_congr rfl fun k _ => ?_
  congr 1 <;> exact congrArg _ (funext fun a => Fin.ext (by match a with | ⟨0, _⟩ => rfl | ⟨1, _⟩ => rfl))

/-- The cosine: the inner product over the product of the two norms, floored at the small constant. -/
theorem v22_eq (x0 x1 : FeatBuf) (i j : Fin 4096) : val_main_v22 (F := Ideal) x0 x1 (ix2 i j) = cosine x0 x1 i j := by
  have e1 : idx_main_v15 (idx_main_v17 (ix2 i j)) = ix1 i :=
    funext fun a => Fin.ext (by match a with | ⟨0, _⟩ => rfl)
  have e2 : idx_main_v16 (idx_main_v18 (ix2 i j)) = ix1 j :=
    funext fun a => Fin.ext (by match a with | ⟨0, _⟩ => rfl)
  rw [val_main_v22_apply, val_main_v21_apply, val_main_v19_apply, val_main_v20_apply, val_main_v17_apply,
    val_main_v18_apply, val_main_v15_apply, val_main_v16_apply, val_main_cst_2_apply, e1, e2, v12_eq, v13_eq, v14_eq]
  rfl

/-- Or-ing a word comparison with the comparison of the two coordinates changes nothing when equal
    coordinates carry equal words: where the coordinates agree the words already do, and elsewhere
    the second comparison is the zero bit. -/
theorem or_diag (a b : BitVec 32) (i j : Nat) (hi : i < 4096) (hj : j < 4096) (h : i = j → a = b) :
    IntOp.ori (IntOp.cmpi .eq a b) (IntOp.cmpi .eq (IntOp.addi (BitVec.ofNat 32 i) 0#32) (BitVec.ofNat 32 j))
      = IntOp.cmpi .eq a b := by
  unfold IntOp.ori IntOp.cmpi IntOp.addi
  by_cases hij : i = j
  · subst hij; rw [h rfl]; simp
  · have hne : (BitVec.ofNat 32 i == BitVec.ofNat 32 j) = false := by
      apply beq_false_of_ne
      intro e
      have := congrArg BitVec.toNat e
      simp only [BitVec.toNat_ofNat] at this
      omega
    simp [hne]

/-- The alignment mask at (i, j): the comparison of the two rows' instruction words; the diagonal term adds nothing. -/
theorem v33_eq (x2 : IdsBuf) (i j : Fin 4096) :
    val_main_v33 (F := Ideal) x2 (ix2 i j) = IntOp.cmpi .eq (x2 (ix1 i)) (x2 (ix1 j)) := by
  have e1 : idx_main_v23 (idx_main_v25 (ix2 i j)) = ix1 i :=
    funext fun a => Fin.ext (by match a with | ⟨0, _⟩ => rfl)
  have e2 : idx_main_v24 (idx_main_v26 (ix2 i j)) = ix1 j :=
    funext fun a => Fin.ext (by match a with | ⟨0, _⟩ => rfl)
  rw [val_main_v33_apply, val_main_v27_apply, val_main_v32_apply, val_main_v31_apply, val_main_v28_apply,
    val_main_v29_apply, val_main_v30_apply, val_main_c_apply, val_main_v25_apply, val_main_v26_apply,
    val_main_v23_apply, val_main_v24_apply, e1, e2]
  exact or_diag _ _ i.val j.val i.isLt j.isLt (fun h => by rw [Fin.ext h])

/-- The pair cost: one minus the cosine on aligned pairs, the cosine's excess over the margin floored at zero elsewhere. -/
theorem v39_eq (x0 x1 : FeatBuf) (x2 : IdsBuf) (i j : Fin 4096) :
    val_main_v39 (F := Ideal) x0 x1 x2 (ix2 i j) = pair x0 x1 x2 i j := by
  rw [val_main_v39_apply, v33_eq, val_main_v35_apply, val_main_v38_apply, val_main_v36_apply, val_main_v34_apply,
    val_main_v37_apply, val_main_cst_3_apply, val_main_cst_4_apply, v22_eq, v11_eq]
  unfold pair
  simp only [Ideal.maximumf_def, Ideal.subf_def, Ideal.ofBits_def, Ideal.ofBits_zero_f32]

/-- The reference's result, at its one index, is the mean loss: the total of the pair costs over the
    grid, from zero, is the double sum row by row, and the last division is by 2^24. -/
theorem ref_eq (x0 x1 : (⟨Cert.ReferenceIdeal.S4096x512, .f32⟩ : BufTy).Contents (Elt Ideal))
    (x2 : (⟨Cert.ReferenceIdeal.S4096, .i32⟩ : BufTy).Contents (Elt Ideal)) :
    Cert.ReferenceIdeal.Read.val_main_v41 (F := Ideal) x0 x1 x2 = fun _ => Cert.PairLoss.meanLoss x0 x1 x2 := by
  funext i
  rw [val_main_v41_apply, val_main_v40_apply, val_main_cst_5_apply, val_main_cst_6_apply, sum_idx2]
  unfold meanLoss rowLoss
  rw [Ideal.hostDivf_def, Ideal.ofBits_def, Ideal.ofBits_def, Ideal.ofBits_zero_f32, zero_add]
  exact congrArg (fun s => Ideal.div s _)
    (Finset.sum_congr rfl fun a _ => Finset.sum_congr rfl fun b _ => v39_eq x0 x1 x2 a b)

end Cert.RefLoss

end
-- ==== Proof.BodyRow.lean ====
/-
  One row of the block, read at the extended reals.

  The program's body works on a block of 256 rows of the 4096 x 512 image and text features; row r of the
  block is row ρ r of the whole array. From the block and the whole text matrix it forms two 256 x 4096
  matrices of inner products (text rows of the block against every text row; image rows of the block
  against every text row), rescales the first by each row's own minimum and maximum into the margins,
  divides the second by the floored product of the two rows' Euclidean norms into the cosines, spreads
  the instruction words of the block down a column and those of all rows along a row, selects at each
  place (r, j) between "one minus the cosine" and "the cosine's excess over the margin, floored at
  zero" by whether the two words agree, sums each row over its 4096 columns, and writes the sums as a
  256 x 1 column.

  This module proves that the entry of that column at row r is the specification's cost of row ρ r:
  `payload_row`. The road is one lemma per intermediate matrix, each read at explicit coordinates (r, j):
  * a contraction of a 256 x 512 block with the transpose of a 4096 x 512 matrix, accumulated from
    zero, is at (r, j) the inner product of row r and row j (`matmul_at`);
  * a minimum, a maximum or a sum taken along the rows of a matrix is, at row r, the fold of min or max
    from the accumulator's value, or the sum, over the row's entries (`rowMin_at`, `rowMax_at`,
    `rowSum_at`);
  * a vector cast to a column, a column spread along its rows and a row spread down its columns read
    the entry one expects (`shapeCast_a_a1_apply`, `broadcastTo_a1_ab_apply`, and the library's row
    form);
  * hence the margins (`pay3_at`), the cosines (`pay4_at`) and the two spread word matrices (`pay5_at`,
    `pay6_at`) at (r, j) are the specification's `weight`, `cosine` and the words of rows ρ r and j.
  A change of format is the identity on extended reals, so the image block narrowed before its product
  contributes the same inner products. The three small constants and the word for one stay the
  single-precision words the program prints; only the zero word is evaluated, to 0.
-/
import proofs.«111663_j63952063038062_2_alg».proof.Proof.Gen.KernelIdeal.Skeleton
import proofs.«111663_j63952063038062_2_alg».proof.Proof.PairLoss
import Idealize.ShloMosaic.PureOps.Ideal
import Idealize.ShloMosaic.PureOps.Ideal.Laws
import Idealize.ShloMosaic.PureOps.Reduce
import Idealize.ShloMosaic.Lib.ValueIdx
import Idealize.ShloMosaic.Lib.ValueLayout
import Idealize.ShloMosaic.Lib.Pipeline.Value

noncomputable section

namespace Cert.BodyRow

open Cert.KernelIdeal Cert.KernelIdeal.Gen Cert.PairLoss Idealize.ShloMosaic Idealize.ShloMosaic.ValueIdx

/-! ## Layout reads by coordinates -/

/-- A vector of length a cast to a column reads, at (i, u), the vector at i. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column broadcast along its rows reads, at (p, c), the column at p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## A minimum over one axis -/

/-- A minimum reduction over one axis, at the ideal values, is the fold of min from the accumulator's
    value over that axis's coordinates. -/
theorem multiReduction_minimumf_single {φ : FTy} {s t : Shape} {a : Fin s.rank} (src : FVec Ideal s φ)
    (acc : BitVec φ.bits) (h : s.Reduces [a] t) (hφ : FKind.Formats φ)
    (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- The row index r with column j inserted is (r, j). -/
theorem lift_row {n m : ℕ} (h : (⟨2, ![n, m]⟩ : Shape).Reduces [1] ⟨1, ![n]⟩) (r : Fin n) (j : Fin m) :
    h.lift (ix1 r) j = ix2 r j := by
  funext c
  match c with
  | ⟨0, _⟩ => exact Fin.ext rfl
  | ⟨1, _⟩ => exact Fin.ext rfl

/-! ## Reductions along the rows of a matrix, by coordinates -/

/-- The minimum over row r, folded from the accumulator's value. -/
theorem rowMin_at {φ : FTy} {n m : ℕ} (M : FVec Ideal ⟨2, ![n, m]⟩ φ) (acc : BitVec φ.bits)
    (h : (⟨2, ![n, m]⟩ : Shape).Reduces [1] ⟨1, ![n]⟩) (hφ : FKind.Formats φ)
    (hacc : acc = FKind.minimumf.neutral φ hφ) (r : Fin n) (f : Fin m → EReal) (hf : ∀ j, M (ix2 r j) = f j) :
    multiReduction .minimumf [1] ⟨1, ![n]⟩ M acc h hφ hacc (ix1 r)
      = (Finset.univ : Finset (Fin m)).fold min (Ideal.ofBits φ acc) f :=
  (multiReduction_minimumf_single M acc h hφ hacc (ix1 r)).trans
    (congrArg (fun g => (Finset.univ : Finset (Fin m)).fold min (Ideal.ofBits φ acc) g)
      (funext fun j => (congrArg M (lift_row h r j)).trans (hf j)))

/-- The maximum over row r, folded from the accumulator's value. -/
theorem rowMax_at {φ : FTy} {n m : ℕ} (M : FVec Ideal ⟨2, ![n, m]⟩ φ) (acc : BitVec φ.bits)
    (h : (⟨2, ![n, m]⟩ : Shape).Reduces [1] ⟨1, ![n]⟩) (hφ : FKind.Formats φ)
    (hacc : acc = FKind.maximumf.neutral φ hφ) (r : Fin n) (f : Fin m → EReal) (hf : ∀ j, M (ix2 r j) = f j) :
    multiReduction .maximumf [1] ⟨1, ![n]⟩ M acc h hφ hacc (ix1 r)
      = (Finset.univ : Finset (Fin m)).fold max (Ideal.ofBits φ acc) f :=
  (Ideal.multiReduction_maximumf_single M acc h hφ hacc (ix1 r)).trans
    (congrArg (fun g => (Finset.univ : Finset (Fin m)).fold max (Ideal.ofBits φ acc) g)
      (funext fun j => (congrArg M (lift_row h r j)).trans (hf j)))

/-- The sum over row r. -/
theorem rowSum_at {φ : FTy} {n m : ℕ} (M : FVec Ideal ⟨2, ![n, m]⟩ φ) (acc : BitVec φ.bits)
    (h : (⟨2, ![n, m]⟩ : Shape).Reduces [1] ⟨1, ![n]⟩) (hφ : FKind.Formats φ)
    (hacc : acc = FKind.add.neutral φ hφ) (r : Fin n) (f : Fin m → EReal) (hf : ∀ j, M (ix2 r j) = f j) :
    multiReduction .add [1] ⟨1, ![n]⟩ M acc h hφ hacc (ix1 r) = ∑ j : Fin m, f j :=
  (Ideal.multiReduction_add_single M acc h hφ hacc (ix1 r)).trans
    (Finset.sum_congr rfl fun j _ => (congrArg M (lift_row h r j)).trans (hf j))

/-! ## The kernel's matrix product read at an index -/

theorem lhs_0 (i : S256x4096.Idx) (q : dot_S256x512_S4096x512_S256x4096_1_1_0_0_n_n.contr.Idx) : (dot_S256x512_S4096x512_S256x4096_1_1_0_0_n_n.lhsIdx i q 0).val = (i 0).val := by
  unfold DotDims.lhsIdx
  rw [dif_neg (show ¬(0 : Fin S256x512.rank) ∈ dot_S256x512_S4096x512_S256x4096_1_1_0_0_n_n.lhsBatch by decide),
    dif_pos (show (0 : Fin S256x512.rank) ∈ dot_S256x512_S4096x512_S256x4096_1_1_0_0_n_n.lhsNonContracting by decide)]
  rfl
theorem lhs_1 (i : S256x4096.Idx) (q : dot_S256x512_S4096x512_S256x4096_1_1_0_0_n_n.contr.Idx) : (dot_S256x512_S4096x512_S256x4096_1_1_0_0_n_n.lhsIdx i q 1).val = (q ⟨0, by decide⟩).val :=
  dot_S256x512_S4096x512_S256x4096_1_1_0_0_n_n.lhsIdx_val_of_single rfl i q
theorem rhs_0 (i : S256x4096.Idx) (q : dot_S256x512_S4096x512_S256x4096_1_1_0_0_n_n.contr.Idx) : (dot_S256x512_S4096x512_S256x4096_1_1_0_0_n_n.rhsIdx i q 0).val = (i 1).val := by
  unfold DotDims.rhsIdx
  rw [dif_neg (show ¬(0 : Fin S4096x512.rank) ∈ dot_S256x512_S4096x512_S256x4096_1_1_0_0_n_n.rhsBatch by decide),
    dif_pos (show (0 : Fin S4096x512.rank) ∈ dot_S256x512_S4096x512_S256x4096_1_1_0_0_n_n.rhsNonContracting by decide)]
  rfl
theorem rhs_1 (i : S256x4096.Idx) (q : dot_S256x512_S4096x512_S256x4096_1_1_0_0_n_n.contr.Idx) : (dot_S256x512_S4096x512_S256x4096_1_1_0_0_n_n.rhsIdx i q 1).val = (q ⟨0, by decide⟩).val :=
  dot_S256x512_S4096x512_S256x4096_1_1_0_0_n_n.rhsIdx_val_of_single rfl i q

/-- The product of a 256 x 512 block with the transpose of a 4096 x 512 matrix, accumulated from zero,
    is at (r, j) the inner product of row r of the block and row j of the matrix. -/
theorem matmul_at {φ₁ φ₂ : FTy} (A : FVec Ideal S256x512 φ₁) (B : FVec Ideal S4096x512 φ₂) (r : Fin 256) (j : Fin 4096) :
    matmul dot_S256x512_S4096x512_S256x4096_1_1_0_0_n_n none A B (constant S256x4096 .f32 0x00000000#32) (ix2 r j)
      = ∑ k : Fin 512, A (ix2 r k) * B (ix2 j k) := by
  simp only [matmul]
  rw [Ideal.matmul_constant_zero_apply, ← Equiv.sum_comp (contrEquiv1 dot_S256x512_S4096x512_S256x4096_1_1_0_0_n_n 512 rfl rfl).symm]
  refine Finset.sum_congr rfl fun k _ => ?_
  have hk := contrEquiv1_symm_val dot_S256x512_S4096x512_S256x4096_1_1_0_0_n_n 512 rfl rfl k
  have el : dot_S256x512_S4096x512_S256x4096_1_1_0_0_n_n.lhsIdx (ix2 r j) ((contrEquiv1 dot_S256x512_S4096x512_S256x4096_1_1_0_0_n_n 512 rfl rfl).symm k) = ix2 r k := funext fun a => Fin.ext (by
    match a with
    | ⟨0, _⟩ => exact lhs_0 _ _
    | ⟨1, _⟩ => exact (lhs_1 _ _).trans hk)
  have er : dot_S256x512_S4096x512_S256x4096_1_1_0_0_n_n.rhsIdx (ix2 r j) ((contrEquiv1 dot_S256x512_S4096x512_S256x4096_1_1_0_0_n_n 512 rfl rfl).symm k) = ix2 j k := funext fun a => Fin.ext (by
    match a with
    | ⟨0, _⟩ => exact rhs_0 _ _
    | ⟨1, _⟩ => exact (rhs_1 _ _).trans hk)
  rw [el, er]

/-! ## The payloads at an index -/

/-- A shape cast to the same shape changes nothing: the whole text matrix as the products read it. -/
theorem pay2_eq (v4 : Vec Ideal S4096x512 .bf16) : k0_pay2 (F := Ideal) v4 = v4 :=
  shapeCast_self _ _

/-- The margin payload at (r, j) is the specification's margin of the pair (ρ r, j): the similarity
    matrix's entry, less its row's minimum, over the row's range plus the small constant. -/
theorem pay3_at (ρ : Fin 256 → Fin 4096) (t : Feat)
    (v4 : Vec Ideal S4096x512 .bf16) (v7 : Vec Ideal S256x512 .bf16)
    (h4 : ∀ (j : Fin 4096) (k : Fin 512), v4 (ix2 j k) = t (ix2 j k))
    (h7 : ∀ (r : Fin 256) (k : Fin 512), v7 (ix2 r k) = t (ix2 (ρ r) k))
    (r : Fin 256) (j : Fin 4096) :
    k0_pay3 (F := Ideal) v4 v7 (ix2 r j) = weight t (ρ r) j := by
  unfold k0_pay3
  simp only [pay2_eq, shapeCast_self]
  have hM : ∀ (r : Fin 256) (j : Fin 4096),
      matmul (F := Ideal) (φ₁ := .bf16) (φ₂ := .bf16) dot_S256x512_S4096x512_S256x4096_1_1_0_0_n_n none v7 v4 (constant S256x4096 .f32 0x00000000#32) (ix2 r j) = sim t (ρ r) j := by
    intro r j
    rw [matmul_at]
    unfold sim
    exact Finset.sum_congr rfl fun k _ => by rw [h7, h4]
  generalize matmul (F := Ideal) (φ₁ := .bf16) (φ₂ := .bf16) dot_S256x512_S4096x512_S256x4096_1_1_0_0_n_n none v7 v4 (constant S256x4096 .f32 0x00000000#32) = M at hM ⊢
  rw [divf_apply, subf_apply, broadcastTo_a1_ab_apply, broadcastTo_a1_ab_apply, shapeCast_a_a1_apply,
    addf_apply, subf_apply, shapeCast_a_a1_apply, shapeCast_a_a1_apply, broadcast_apply]
  unfold weight
  exact congrArg₂ Ideal.div
    (congrArg₂ HSub.hSub (hM r j) (rowMin_at M _ _ _ _ r _ (hM r)))
    (congrArg₂ HAdd.hAdd
      (congrArg₂ HSub.hSub (rowMax_at M _ _ _ _ r _ (hM r)) (rowMin_at M _ _ _ _ r _ (hM r))) rfl)

/-- A square root at an index is the square root of the element. -/
theorem sqrt_apply {s : Shape} {φ : FTy} (a : FVec Ideal s φ) (i : s.Idx) : sqrt a i = Ideal.sqrt (a i) := rfl

/-- The cosine payload at (r, j) is the specification's cosine of image row ρ r against text row j:
    their inner product over the product of the two norms, floored by the small constant. -/
theorem pay4_at (ρ : Fin 256 → Fin 4096) (x t : Feat)
    (v2 : Vec Ideal S256x512 .f32) (v4 : Vec Ideal S4096x512 .bf16) (v26 : Vec Ideal S1x4096 .f32)
    (h2 : ∀ (r : Fin 256) (k : Fin 512), v2 (ix2 r k) = x (ix2 (ρ r) k))
    (h4 : ∀ (j : Fin 4096) (k : Fin 512), v4 (ix2 j k) = t (ix2 j k))
    (h26 : ∀ j : Fin 4096, v26 (ix2 (0 : Fin 1) j) = norm t j)
    (r : Fin 256) (j : Fin 4096) :
    k0_pay4 (F := Ideal) v2 v4 v26 (ix2 r j) = cosine x t (ρ r) j := by
  unfold k0_pay4
  simp only [pay2_eq, shapeCast_self]
  have hM : ∀ hlt, matmul (F := Ideal) (φ₁ := .bf16) (φ₂ := .bf16) dot_S256x512_S4096x512_S256x4096_1_1_0_0_n_n none
      (truncf (F := Ideal) (φ := .f32) .bf16 v2 hlt) v4 (constant S256x4096 .f32 0x00000000#32) (ix2 r j) = dots x t (ρ r) j := by
    intro hlt
    rw [matmul_at]
    unfold dots
    exact Finset.sum_congr rfl fun k _ => by rw [truncf_apply, h2, h4]
  have hsq : ∀ k : Fin 512, mulf (F := Ideal) (φ := .f32) v2 v2 (ix2 r k) = x (ix2 (ρ r) k) * x (ix2 (ρ r) k) := fun k => by
    rw [mulf_apply, h2]
  rw [divf_apply, hM, maximumf_apply, mulf_apply, broadcastTo_a1_ab_apply, broadcastTo_1b_ab_apply,
    broadcast_apply, h26, sqrt_apply, shapeCast_a_a1_apply]
  unfold cosine
  exact congrArg₂ Ideal.div rfl
    (congrArg₂ max (congrArg₂ HMul.hMul (congrArg Ideal.sqrt (rowSum_at _ _ _ _ _ r _ hsq)) rfl) rfl)

/-- The column of instruction words, spread along the rows, reads at (r, j) the word of row ρ r. -/
theorem pay5_at (ρ : Fin 256 → Fin 4096) (s : Ids) (v34 : Vec Ideal S256x1 .i32)
    (h34 : ∀ r : Fin 256, v34 (ix2 r (0 : Fin 1)) = s (ix1 (ρ r))) (r : Fin 256) (j : Fin 4096) :
    k0_pay5 (F := Ideal) v34 (ix2 r j) = s (ix1 (ρ r)) := by
  unfold k0_pay5
  simp only [shapeCast_self]
  rw [broadcastTo_a1_ab_apply, h34]

/-- The row of instruction words, spread down the columns, reads at (r, j) the word of row j. -/
theorem pay6_at (s : Ids) (v36 : Vec Ideal S1x4096 .i32)
    (h36 : ∀ j : Fin 4096, v36 (ix2 (0 : Fin 1) j) = s (ix1 j)) (r : Fin 256) (j : Fin 4096) :
    k0_pay6 (F := Ideal) v36 (ix2 r j) = s (ix1 j) := by
  unfold k0_pay6
  simp only [shapeCast_self]
  rw [broadcastTo_1b_ab_apply, h36]

/-- An integer comparison at an index compares the elements. -/
theorem cmpi_apply {s : Shape} {w : ℕ} (p : CmpIPredicate) (a b : IVec s w) (i : s.Idx) :
    cmpi p a b i = IntOp.cmpi p (a i) (b i) := rfl

/-- THE ROW: the stored column's entry at row r is the specification's cost of row ρ r: the sum over
    the 4096 columns of the selected pair costs, each term read through the four payloads above. -/
theorem payload_row (ρ : Fin 256 → Fin 4096) (x t : Feat) (s : Ids)
    (v2 : Vec Ideal S256x512 .f32) (v4 : Vec Ideal S4096x512 .bf16) (v7 : Vec Ideal S256x512 .bf16)
    (v26 : Vec Ideal S1x4096 .f32) (v34 : Vec Ideal S256x1 .i32) (v36 : Vec Ideal S1x4096 .i32)
    (h2 : ∀ (r : Fin 256) (k : Fin 512), v2 (ix2 r k) = x (ix2 (ρ r) k))
    (h4 : ∀ (j : Fin 4096) (k : Fin 512), v4 (ix2 j k) = t (ix2 j k))
    (h7 : ∀ (r : Fin 256) (k : Fin 512), v7 (ix2 r k) = t (ix2 (ρ r) k))
    (h26 : ∀ j : Fin 4096, v26 (ix2 (0 : Fin 1) j) = norm t j)
    (h34 : ∀ r : Fin 256, v34 (ix2 r (0 : Fin 1)) = s (ix1 (ρ r)))
    (h36 : ∀ j : Fin 4096, v36 (ix2 (0 : Fin 1) j) = s (ix1 j))
    (r : Fin 256) :
    k0_pay1 (F := Ideal) (k0_pay3 v4 v7) (k0_pay4 v2 v4 v26) (k0_pay5 v34) (k0_pay6 v36) (ix2 r (0 : Fin 1)) = rowLoss x t s (ρ r) := by
  unfold k0_pay1
  dsimp only
  rw [shapeCast_a_a1_apply]
  unfold rowLoss
  refine rowSum_at _ _ _ _ _ r (fun j => pair x t s (ρ r) j) fun j => ?_
  rw [select_apply, cmpi_apply, subf_apply, maximumf_apply, subf_apply, broadcast_apply, broadcast_apply,
    pay3_at ρ t v4 v7 h4 h7, pay4_at ρ x t v2 v4 v26 h2 h4 h26, pay5_at ρ s v34 h34, pay6_at s v36 h36,
    Ideal.ofBits_def, Ideal.ofBits_def, Ideal.ofBits_zero_f32]
  rfl

end Cert.BodyRow

end
-- ==== Proof.HostSide.lean ====
/-
  The host-side arithmetic on either side of the kernel region, read entry by entry over the extended reals.

  Before the region the program prepares four arrays from its arguments:
  * the text features narrowed to a 16-bit format; over the extended reals a change of format keeps every entry,
    so this array is the text features themselves;
  * the Euclidean norm of each text row j, the square root of the sum over k of t[j,k] * t[j,k], the sum started
    from the zero word, laid out as a 1 x 4096 row;
  * the instruction words laid out once as a 4096 x 1 column and once as a 1 x 4096 row; a reshape keeps every
    entry's row-major position, so entry (i, 0) of the column is word i and entry (0, j) of the row is word j.
  After the region the program adds up the region's 4096 x 1 result over both axes, again from the zero word, and
  divides by the word 0x4B800000 (two to the 24th): when entry (i, 0) of that result is R i, the scalar the
  program returns is the sum of the R i over that word.
-/
import proofs.«111663_j63952063038062_2_alg».proof.Proof.Gen.KernelIdeal.Frame
import proofs.«111663_j63952063038062_2_alg».proof.Proof.PairLoss
import Idealize.ShloMosaic.Lib.StableHlo.Run
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

set_option maxRecDepth 16384

noncomputable section

namespace Cert.HostSide

open Cert.KernelIdeal Cert.KernelIdeal.Gen Cert.PairLoss
open Idealize.ShloMosaic Idealize.ShloMosaic.TcCoe Idealize.ShloMosaic.ValueIdx Idealize.SL.Sem

/-! ## Two small facts about shapes -/

/-- A length-a vector reshaped to an a x 1 column reads, at (i, u), the vector at i: both entries sit at
    row-major position i. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- Summing a 4096 x 512 array over its second axis leaves a length-4096 vector. -/
theorem red512 : S4096x512.Reduces [1] S4096 := by decide

/-- The entry of row j that the sum over the second axis meets at coordinate k is (j, k). -/
theorem lift_red512 (j : Fin 4096) (k : Fin 512) : red512.lift (ix1 j) k = ix2 j k := by
  funext a
  match a with
  | ⟨0, _⟩ => exact Fin.ext rfl
  | ⟨1, _⟩ => exact Fin.ext rfl

/-- So the sum over the second axis at j is the sum over k of the entries (j, k). -/
theorem sum_lift_red512 (A : S4096x512.Idx → EReal) (j : Fin 4096) :
    ∑ k : Fin (S4096x512.size 1), A (red512.lift (ix1 j) k) = ∑ k : Fin 512, A (ix2 j k) :=
  Finset.sum_congr rfl fun k _ => congrArg A (lift_red512 j k)

variable (m : (ℓ : Loc nD τ sig) → Buf (Elt Ideal) ℓ) (c : Dev nD)

/-! ## Before the region -/

/-- The narrowed text features are the text features: over the extended reals the format change is the identity. -/
theorem V_text : (V m c main_v0 : S4096x512.Idx → EReal) = m ((c : Thread nD τ).loc main_arg1) := by
  dsimp only [Gen.V, Gen.V0]
  simp only [Gen.hostOps0, Gen.hostOps0_1, Gen.hostOps0_2, List.flatten_cons, List.flatten_nil, List.append_nil,
    List.cons_append, List.nil_append]
  after_results
  rfl

/-- The norms' row as the operations compose it: the text features squared entry by entry, summed over the second
    axis from the zero word, the square root taken, the vector laid out as a row. -/
theorem V_norm_term : (V m c main_v2 : S1x4096.Idx → EReal) =
    shapeCast S1x4096 (Host.sqrt (F := Ideal) (Host.reduceAdd (F := Ideal)
      (mulf (F := Ideal) (m ((c : Thread nD τ).loc main_arg1) : S4096x512.Idx → EReal) (m ((c : Thread nD τ).loc main_arg1)))
      (constant (F := Ideal) S_ .f32 0x00000000#32) reducesTo_S4096x512_S4096_d1 h_S_)) shapeCasts_S4096_S1x4096 := by
  dsimp only [Gen.V, Gen.V0]
  simp only [Gen.hostOps0, Gen.hostOps0_1, Gen.hostOps0_2, List.flatten_cons, List.flatten_nil, List.append_nil,
    List.cons_append, List.nil_append]
  after_results
  rfl

/-- Entry (0, j) of the norms' row is the Euclidean norm of text row j. -/
theorem V_norm (j : Fin 4096) :
    (V m c main_v2 : S1x4096.Idx → EReal) (ix2 (0 : Fin 1) j) = PairLoss.norm (m ((c : Thread nD τ).loc main_arg1)) j := by
  refine (congrFun (V_norm_term m c) _).trans ?_
  rw [shapeCast_a_1a_apply (a := 4096)]
  dsimp only [Host.sqrt]
  rw [Ideal.hostUnary_sqrt_def, hostReduceAdd_apply, Ideal.hostReduceAdd_single reducesTo_S4096x512_S4096_d1 red512,
    constant_apply, Ideal.ofBits_zero_f32, zero_add]
  unfold PairLoss.norm
  exact congrArg Ideal.sqrt (sum_lift_red512 _ j)

/-- Entry (i, 0) of the instruction words' column is word i. -/
theorem V_ids_col (i : Fin 4096) :
    (V m c main_v3 : S4096x1.Idx → BitVec 32) (ix2 i (0 : Fin 1)) = m ((c : Thread nD τ).loc main_arg2) (ix1 i) := by
  dsimp only [Gen.V, Gen.V0]
  simp only [Gen.hostOps0, Gen.hostOps0_1, Gen.hostOps0_2, List.flatten_cons, List.flatten_nil, List.append_nil,
    List.cons_append, List.nil_append]
  after_results
  show shapeCast S4096x1 (m ((c : Thread nD τ).loc main_arg2) : S4096.Idx → BitVec 32) shapeCasts_S4096_S4096x1
      (ix2 i (0 : Fin 1)) = _
  exact shapeCast_a_a1_apply (a := 4096) _ _ _ _

/-- Entry (0, j) of the instruction words' row is word j. -/
theorem V_ids_row (j : Fin 4096) :
    (V m c main_v4 : S1x4096.Idx → BitVec 32) (ix2 (0 : Fin 1) j) = m ((c : Thread nD τ).loc main_arg2) (ix1 j) := by
  dsimp only [Gen.V, Gen.V0]
  simp only [Gen.hostOps0, Gen.hostOps0_1, Gen.hostOps0_2, List.flatten_cons, List.flatten_nil, List.append_nil,
    List.cons_append, List.nil_append]
  after_results
  show shapeCast S1x4096 (m ((c : Thread nD τ).loc main_arg2) : S4096.Idx → BitVec 32) shapeCasts_S4096_S1x4096
      (ix2 (0 : Fin 1) j) = _
  exact shapeCast_a_1a_apply (a := 4096) _ _ _ _

/-! ## After the region -/

/-- The scalar the program returns: when the region's 4096 x 1 result holds R i at (i, 0), it is the sum of the R i
    (the sum over both axes, started from the zero word, is the double sum over the coordinates, and the inner sum
    over the one column is its single term) divided by the word 0x4B800000. -/
theorem tail_eq (R : Fin 4096 → EReal)
    (hR : ∀ i : Fin 4096, ((dats m 0 c).arrAt 5 cfg0.N : S4096x1.Idx → EReal) (ix2 i (0 : Fin 1)) = R i) :
    (Pipeline.afterTail₀ cfgs (dats m) 0 (V0 m) [hostOps1] c main_v7 : S_.Idx → EReal)
      = fun _ => Ideal.div (∑ i : Fin 4096, R i) (Ideal.ofBits .f32 0x4B800000#32) := by
  unfold Pipeline.afterTail₀
  show StableHlo.after hostOps1 _ (Proc.devRef .tc main_v7) = _
  after_results
  have hw : Pipeline.withArrays (cfgs 0).spec c (V0 m c) (fun w => (dats m 0 c).arrAt w (cfgs 0).N) (Proc.devRef .tc main_v5)
      = (dats m 0 c).arrAt 5 cfg0.N := Pipeline.withArrays_arr spec0 winFacts0.arr_inj c _ _ 5
  rw [hw]
  funext x
  unfold Host.divf Host.reduceAdd
  show Ideal.div (Ideal.hostReduceAdd reducesTo_S4096x1_S_d0_1 ((dats m 0 c).arrAt 5 cfg0.N : S4096x1.Idx → EReal)
      (Ideal.ofBits .f32 0x00000000#32) _) (Ideal.ofBits .f32 0x4B800000#32) = _
  rw [Ideal.hostReduceAdd_total reducesTo_S4096x1_S_d0_1 (fun b => b.elim0), Ideal.ofBits_zero_f32, zero_add, sum_idx2]
  refine congrArg (fun s => Ideal.div s (Ideal.ofBits .f32 0x4B800000#32)) (Finset.sum_congr rfl fun i _ => ?_)
  rw [Fin.sum_univ_one]
  exact hR i

end Cert.HostSide

end
-- ==== Proof.RowArray.lean ====
/-
  The kernel's result array holds the row costs, and the kernel's program returns the loss.

  The kernel runs over sixteen grid points; point t works on rows 256 t … 256 t + 255. At a point the body
  loads the image rows of its block, the whole text matrix, the text rows of its block (read out of the resident
  text matrix at the row offset 256 t it computes itself), the row of text norms, and the instruction words as a
  column block and as a whole row; its one store covers the output block, so the block ends holding the stored
  value: for each row of the block, the sum over all 4096 columns of the pair costs. Each loaded block is the
  matching piece of an argument array, or of what the host lines before the kernel made of one (the text matrix
  itself, its row norms, the instruction words reshaped), so row r of point t's block is the cost of row
  256 t + r. The sixteen blocks tile the 4096 rows, hence the array after the run is the row costs; the host lines
  after the kernel add them up and divide by 2^24, which is the loss.
-/
import proofs.«111663_j63952063038062_2_alg».proof.Proof.Gen.KernelIdeal.Frame
import proofs.«111663_j63952063038062_2_alg».proof.Proof.PairLoss
import proofs.«111663_j63952063038062_2_alg».proof.Proof.BodyRow
import proofs.«111663_j63952063038062_2_alg».proof.Proof.HostSide
import Idealize.ShloMosaic.Lib.Pipeline.Value
import Idealize.ShloMosaic.Lib.ValueIdx
import Idealize.ShloMosaic.Lib.Tactic

set_option maxRecDepth 16384

noncomputable section
open Idealize.ShloMosaic Idealize.ShloMosaic.TcCoe Idealize.SL.Sem Idealize.ShloMosaic.ValueIdx
open Idealize.ShloMosaic.Pipeline (Dat)

namespace Cert.RowArray
open Cert.KernelIdeal Cert.KernelIdeal.Gen Cert.PairLoss

section AnyValues
variable {F : FTy → Type} [FloatOps F]
variable (m : (ℓ : Loc nD τ sig) → Buf (Elt F) ℓ)

theorem hz : (![0, 0] : Fin 2 → Nat) = fun _ => 0 := funext fun a => by fin_cases a <;> rfl

/-- What the body leaves in the output block: its one store covers the block, so the block holds the stored value,
    the row sums of the pair costs computed from the five loaded blocks and from the text rows of this block,
    which the body reads out of the resident text matrix at the block's own row offset. -/
theorem out_eq (c : Dev nD) (i : grid0.Coords) (arg1 : Memref sig .tc .vmem S256x512 .f32) (harg1 : arg1.IsWhole) (arg2 : Memref sig .tc .vmem S4096x512 .bf16) (harg2 : arg2.IsWhole) (arg3 : Memref sig .tc .vmem S1x4096 .f32) (harg3 : arg3.IsWhole) (arg4 : Memref sig .tc .vmem S256x1 .i32) (harg4 : arg4.IsWhole) (arg5 : Memref sig .tc .vmem S1x4096 .i32) (harg5 : arg5.IsWhole) (arg6 : Memref sig .tc .vmem S256x1 .f32) (harg6 : arg6.IsWhole)
    (x0 : Vec F S256x512 .f32) (x1 : Vec F S4096x512 .bf16) (x2 : Vec F S1x4096 .f32) (x3 : Vec F S256x1 .i32) (x4 : Vec F S1x4096 .i32) :
    out0_A_5 c i arg1 harg1 arg2 harg2 arg3 harg3 arg4 harg4 arg5 harg5 arg6 harg6 x0 x1 x2 x3 x4
      = k0_pay1 (k0_pay3 x1 (View.ld x1 (Rect.unit (s := S4096x512) (k0_off1 i) S256x512.size (k0_off1_inb i))))
          (k0_pay4 x0 x1 x2) (k0_pay5 x3) (k0_pay6 x4) := by
  unfold out0_A_5
  rw [View.read_writes_eq_canon _ _ _ (cover0_A_5 c i arg1 harg1 arg2 harg2 arg3 harg3 arg4 harg4 arg5 harg5 arg6 harg6 x0 x1 x2 x3 x4)]
  unfold kernelRun0_A
  dsimp only
  sl_unfold_words
  rw [View.canon_unit_zero hz]
  simp only [View.readAt_eq_ld, harg1.read_unread, harg2.read_unread, harg3.read_unread, harg4.read_unread, harg5.read_unread,
    View.ld_unit_zero (S := S256x512) hz, View.ld_unit_zero (S := S4096x512) hz, View.ld_unit_zero (S := S1x4096) hz,
    View.ld_unit_zero (S := S256x1) hz]

/-- The block index of every window at every grid point, and the row offset the body computes there: the three
    row-tiled windows sit at block t, the three resident ones at block 0, and the offset is 256 t. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ k0_off1 (grid0.coords t) (0 : Fin 2) = 256 * t.val ∧ k0_off1 (grid0.coords t) (1 : Fin 2) = 0 :=
  (by decide +kernel : ∀ t : Fin grid0.N, _)

/-- Row r of the block of point t is row 256 t + r of the array. -/
def rowOf (t : Fin cfg0.N) (r : Fin 256) : Fin 4096 :=
  ⟨256 * t.val + r.val, by have := t.isLt; have hN : cfg0.N = 16 := N_0; have := r.isLt; omega⟩

/-- The image block of point t: rows 256 t … 256 t + 255 of the image features. -/
theorem iblk0_apply (c : Dev nD) (t : Fin cfg0.N) (r : Fin 256) (k : Fin 512) :
    (iblk m c 0 t : Vec F S256x512 .f32) (ix2 r k) = (V m c main_arg0 : S4096x512.Idx → Elt F .f32) (ix2 (rowOf t r) k) := by
  obtain ⟨e0, e1, -⟩ := idx_facts t
  unfold iblk
  rw [View.read_apply]
  show V m c main_arg0 _ = V m c main_arg0 _
  congr 1
  funext a
  apply Fin.ext
  match a with
  | ⟨0, _⟩ => show win0_0.index t (0 : Fin 2) * 256 + 1 * r.val = 256 * t.val + r.val; omega
  | ⟨1, _⟩ => show win0_0.index t (1 : Fin 2) * 512 + 1 * k.val = k.val; omega

/-- The text block is the whole text matrix at every point. -/
theorem iblk1_apply (c : Dev nD) (t : Fin cfg0.N) (j : Fin 4096) (k : Fin 512) :
    (iblk m c 1 t : Vec F S4096x512 .bf16) (ix2 j k) = (V m c main_v0 : S4096x512.Idx → Elt F .bf16) (ix2 j k) := by
  obtain ⟨-, -, e0, e1, -⟩ := idx_facts t
  unfold iblk
  rw [View.read_apply]
  show V m c main_v0 _ = V m c main_v0 _
  congr 1
  funext a
  apply Fin.ext
  match a with
  | ⟨0, _⟩ => show win0_1.index t (0 : Fin 2) * 4096 + 1 * j.val = j.val; omega
  | ⟨1, _⟩ => show win0_1.index t (1 : Fin 2) * 512 + 1 * k.val = k.val; omega

/-- The rows of the text matrix the body reads at its computed offset are the block's own rows. -/
theorem rows_apply (X : Vec F S4096x512 .bf16) (t : Fin cfg0.N) (r : Fin 256) (k : Fin 512) :
    View.ld X (Rect.unit (s := S4096x512) (k0_off1 (grid0.coords t)) S256x512.size (k0_off1_inb (grid0.coords t))) (ix2 r k)
      = X (ix2 (rowOf t r) k) := by
  obtain ⟨-, -, -, -, -, -, -, -, -, -, -, -, o0, o1⟩ := idx_facts t
  show X _ = X _
  congr 1
  funext a
  apply Fin.ext
  match a with
  | ⟨0, _⟩ => show k0_off1 (grid0.coords t) (0 : Fin 2) + 1 * r.val = 256 * t.val + r.val; omega
  | ⟨1, _⟩ => show k0_off1 (grid0.coords t) (1 : Fin 2) + 1 * k.val = k.val; omega

/-- The text norms' block is the whole row of norms at every point. -/
theorem iblk2_apply (c : Dev nD) (t : Fin cfg0.N) (j : Fin 4096) :
    (iblk m c 2 t : Vec F S1x4096 .f32) (ix2 (0 : Fin 1) j) = (V m c main_v2 : S1x4096.Idx → Elt F .f32) (ix2 (0 : Fin 1) j) := by
  obtain ⟨-, -, -, -, e0, e1, -⟩ := idx_facts t
  unfold iblk
  rw [View.read_apply]
  show V m c main_v2 _ = V m c main_v2 _
  congr 1
  funext a
  apply Fin.ext
  match a with
  | ⟨0, _⟩ => show win0_2.index t (0 : Fin 2) * 1 + 1 * 0 = 0; omega
  | ⟨1, _⟩ => show win0_2.index t (1 : Fin 2) * 4096 + 1 * j.val = j.val; omega

/-- The instruction words' column block of point t: rows 256 t … 256 t + 255. -/
theorem iblk3_apply (c : Dev nD) (t : Fin cfg0.N) (r : Fin 256) :
    (iblk m c 3 t : Vec F S256x1 .i32) (ix2 r (0 : Fin 1)) = (V m c main_v3 : S4096x1.Idx → Elt F .i32) (ix2 (rowOf t r) (0 : Fin 1)) := by
  obtain ⟨-, -, -, -, -, -, e0, e1, -⟩ := idx_facts t
  unfold iblk
  rw [View.read_apply]
  show V m c main_v3 _ = V m c main_v3 _
  congr 1
  funext a
  apply Fin.ext
  match a with
  | ⟨0, _⟩ => show win0_3.index t (0 : Fin 2) * 256 + 1 * r.val = 256 * t.val + r.val; omega
  | ⟨1, _⟩ => show win0_3.index t (1 : Fin 2) * 1 + 1 * 0 = 0; omega

/-- The instruction words' row block is the whole row at every point. -/
theorem iblk4_apply (c : Dev nD) (t : Fin cfg0.N) (j : Fin 4096) :
    (iblk m c 4 t : Vec F S1x4096 .i32) (ix2 (0 : Fin 1) j) = (V m c main_v4 : S1x4096.Idx → Elt F .i32) (ix2 (0 : Fin 1) j) := by
  obtain ⟨-, -, -, -, -, -, -, -, e0, e1, -⟩ := idx_facts t
  unfold iblk
  rw [View.read_apply]
  show V m c main_v4 _ = V m c main_v4 _
  congr 1
  funext a
  apply Fin.ext
  match a with
  | ⟨0, _⟩ => show win0_4.index t (0 : Fin 2) * 1 + 1 * 0 = 0; omega
  | ⟨1, _⟩ => show win0_4.index t (1 : Fin 2) * 4096 + 1 * j.val = j.val; omega

/-- An index of the result array is in point t's block iff each coordinate is in the block's range on its axis. -/
theorem mem_blk (t : Fin cfg0.N) (i : S4096x1.Idx) :
    i ∈ ((cfg0.win 5).blk t).view.set ↔ ∀ a : Fin 2, win0_5.index t a * S256x1.size a ≤ (i a).val ∧ (i a).val < win0_5.index t a * S256x1.size a + S256x1.size a := by
  show i ∈ ((View.whole main_v5).slice (win0_5.rect t)).set ↔ _
  rw [View.set_slice_whole, Rect.mem_set_unit]
  exact Iff.rfl

/-- Every row of the result array is in the block of the point its row number over 256 names. -/
theorem cover (i : S4096x1.Idx) : ∃ t : Fin cfg0.N, (cfg0.win 5).flush t = true ∧ i ∈ ((cfg0.win 5).blk t).view.set := by
  have hi0 : (i 0).val < 4096 := (i 0).isLt
  have hi1 : (i 1).val < 1 := (i 1).isLt
  have hN : cfg0.N = 16 := N_0
  have ht : (i 0).val / 256 < cfg0.N := by omega
  obtain ⟨-, -, -, -, -, -, -, -, -, -, e0, e1, -⟩ := idx_facts ⟨(i 0).val / 256, ht⟩
  refine ⟨⟨(i 0).val / 256, ht⟩, flush0_5 _, ?_⟩
  rw [mem_blk]
  intro a
  match a with
  | ⟨0, _⟩ =>
    show win0_5.index ⟨(i 0).val / 256, ht⟩ (0 : Fin 2) * 256 ≤ (i 0).val ∧ (i 0).val < win0_5.index ⟨(i 0).val / 256, ht⟩ (0 : Fin 2) * 256 + 256
    have e0' : win0_5.index ⟨(i 0).val / 256, ht⟩ (0 : Fin 2) = (i 0).val / 256 := e0
    omega
  | ⟨1, _⟩ =>
    show win0_5.index ⟨(i 0).val / 256, ht⟩ (1 : Fin 2) * 1 ≤ (i 1).val ∧ (i 1).val < win0_5.index ⟨(i 0).val / 256, ht⟩ (1 : Fin 2) * 1 + 1
    omega

end AnyValues

section AtIdeal
variable (m : (ℓ : Loc nD τ sig) → Buf (Elt Ideal) ℓ) (ρ : Dev nD → PrngReg)

/-- The three argument arrays as the specification reads them. -/
abbrev img (c : Dev nD) : Feat := m ((c : Thread nD τ).loc main_arg0)
abbrev txt (c : Dev nD) : Feat := m ((c : Thread nD τ).loc main_arg1)
abbrev ids (c : Dev nD) : Ids := m ((c : Thread nD τ).loc main_arg2)

/-- The kernel's result array as one function of the argument arrays: entry (i, 0) is the cost of row i. -/
def rows (c : Dev nD) : S4096x1.Idx → EReal := fun i => rowLoss (img m c) (txt m c) (ids m c) (i 0)

/-- What point t writes back is block t of the row costs: row r of its block is the cost of row 256 t + r, because
    each loaded block is the matching piece of the argument arrays (or of what the host lines before the region made
    of them: the text matrix itself, the row of its norms, the instruction words as a column and as a row). -/
theorem flushed_eq (c : Dev nD) (t : Fin cfg0.N) :
    (dats m 0 c).flushed 5 t = ((cfg0.win 5).blk t).view.read (Elt Ideal) (rows m c) := by
  show (cfg0.win 5).cut (grid0.coords t) ((dats m 0 c).after 5 t) = _
  rw [after0_5]
  unfold outsAt0
  rw [out_eq]
  obtain ⟨-, -, -, -, -, -, -, -, -, -, e0, e1, -⟩ := idx_facts t
  funext y
  obtain ⟨r, z, rfl⟩ : ∃ (r : Fin 256) (z : Fin 1), y = ix2 r z := ⟨y 0, y 1, eq_ix2 y⟩
  obtain rfl : z = 0 := Subsingleton.elim _ _
  rw [View.read_apply]
  have hrow : (((cfg0.win 5).blk t).view.emb (ix2 r (0 : Fin 1)) : S4096x1.Idx) 0 = rowOf t r :=
    Fin.ext (by show win0_5.index t (0 : Fin 2) * 256 + 1 * r.val = 256 * t.val + r.val; omega)
  show _ = rowLoss (img m c) (txt m c) (ids m c) ((((cfg0.win 5).blk t).view.emb (ix2 r (0 : Fin 1)) : S4096x1.Idx) 0)
  rw [hrow]
  exact Cert.BodyRow.payload_row (rowOf t) (img m c) (txt m c) (ids m c)
    (iblk m c 0 t) (iblk m c 1 t)
    (View.ld (iblk m c 1 t) (Rect.unit (s := S4096x512) (k0_off1 (grid0.coords t)) S256x512.size (k0_off1_inb (grid0.coords t))))
    (iblk m c 2 t) (iblk m c 3 t) (iblk m c 4 t)
    (fun r k => (iblk0_apply m c t r k).trans (congrFun (V_main_arg0 m c) _))
    (fun j k => (iblk1_apply m c t j k).trans (congrFun (Cert.HostSide.V_text m c) _))
    (fun r k => (rows_apply (iblk m c 1 t) t r k).trans ((iblk1_apply m c t (rowOf t r) k).trans (congrFun (Cert.HostSide.V_text m c) _)))
    (fun j => (iblk2_apply m c t j).trans (Cert.HostSide.V_norm m c j))
    (fun r => (iblk3_apply m c t r).trans (Cert.HostSide.V_ids_col m c (rowOf t r)))
    (fun j => (iblk4_apply m c t j).trans (Cert.HostSide.V_ids_row m c j))
    r

/-- So the result array ends holding the row costs: the sixteen blocks tile it. -/
theorem final (c : Dev nD) : (dats m 0 c).arrAt 5 cfg0.N = rows m c :=
  (dats m 0 c).arrAt_eq_of_cover 5 (rows m c) (fun t _ => flushed_eq m c t) cover

/-- The run, read: the program's result is the loss of the three argument arrays, which end unchanged. -/
theorem run : θ_run defs (onTc (τ := τ) (main (F := Ideal))) ⟨m, fun _ => 0, ρ⟩ fun r => ∀ c : Dev nD,
      r.2.mem ((c : Thread nD τ).loc main_v7) = (fun _ => meanLoss (img m c) (txt m c) (ids m c))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c =>
      ⟨((h c).2 main_v7 (Pipeline.mem_restRefs_of main_v7 (by decide) (by decide))).trans
          (Cert.HostSide.tail_eq m c (fun i => rowLoss (img m c) (txt m c) (ids m c) i) (fun i => congrFun (final m c) (ix2 i (0 : Fin 1)))),
        ((h c).1 0).trans (((dats m 0 c).arrAt_in 0 rfl _).trans ((A_eq m c 0).trans (V_main_arg0 m c))),
        ((h c).2 main_arg1 (Pipeline.mem_restRefs_of main_arg1 (by decide) (by decide))).trans (W_main_arg1 m (dats m) c),
        ((h c).2 main_arg2 (Pipeline.mem_restRefs_of main_arg2 (by decide) (by decide))).trans (W_main_arg2 m (dats m) c)⟩)
    (run_main m ρ)

end AtIdeal
end Cert.RowArray
end
-- ==== Proof.lean ====
/-
  The certificate's five claims.

  Both programs compute one quantity, written once in Proof/PairLoss.lean: from image features x, text features t
  and one instruction word per row, the mean over all 4096 x 4096 pairs (i, j) of a pair cost — one minus the
  cosine of image row i and text row j when the two rows carry the same instruction word, and otherwise the
  cosine's excess over a margin (text row i's similarity to text row j, rescaled by row i's own minimum and
  maximum), floored at zero.

  The kernel's program tiles the rows into sixteen blocks of 256, computes each row's cost (the sum over all
  columns) inside the kernel, and adds the 4096 row costs up afterwards; the reference builds the whole
  4096 x 4096 matrix of pair costs and sums it at once. Over the extended reals the two agree for every input:
  addition is commutative and associative there, so the sum over all pairs is the sum of the row sums; the matrix
  products, the row minima and maxima, the norms and the quotients are the same exact operations on both sides,
  and the small constants are the same words. The one difference of form is the reference's alignment mask, which
  also ORs in the diagonal i = j: there the two instruction words are one word, so the comparison already holds.
  No finiteness of the inputs is used.

  The three frames are the programs' runs (the two kernels' frames, and the reference's run with its result
  dropped); the idealization rewrote nothing, so it is preserved trivially.
-/
import proofs.«111663_j63952063038062_2_alg».proof.Defs
import proofs.«111663_j63952063038062_2_alg».proof.Proof.Gen.Kernel
import proofs.«111663_j63952063038062_2_alg».proof.Proof.Gen.Kernel.Frame
import proofs.«111663_j63952063038062_2_alg».proof.Proof.Gen.KernelIdeal
import proofs.«111663_j63952063038062_2_alg».proof.Proof.Gen.KernelIdeal.Frame
import proofs.«111663_j63952063038062_2_alg».proof.Proof.Gen.ReferenceIdeal
import proofs.«111663_j63952063038062_2_alg».proof.Proof.Gen.ReferenceIdeal.Run
import proofs.«111663_j63952063038062_2_alg».proof.Proof.Gen.ReferenceIdeal.Read
import proofs.«111663_j63952063038062_2_alg».proof.Proof.Gen.Pre_finite_inputs
import proofs.«111663_j63952063038062_2_alg».proof.Proof.PairLoss
import proofs.«111663_j63952063038062_2_alg».proof.Proof.RefLoss
import proofs.«111663_j63952063038062_2_alg».proof.Proof.RowArray
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel (hKernel := Cert.Kernel.Gen.facts) (hPre_finite_inputs := Cert.Pre_finite_inputs.Gen.facts) :=
  fun m ρ _ => Cert.Kernel.Gen.frame m ρ

/-- So does its idealization. -/
theorem frame_kernel_ideal : Cert.frame_KernelIdeal (hKernelIdeal := Cert.KernelIdeal.Gen.facts) (hPre_finite_inputs := Cert.Pre_finite_inputs.Gen.facts) :=
  fun m ρ _ => Cert.KernelIdeal.Gen.frame m ρ

/-- The reference runs and leaves its arguments unchanged: its run, with the result dropped. -/
theorem frame_reference_ideal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Over the extended reals both programs end with the loss of the argument arrays: the kernel's program by its
    run read back (the row costs tiled over sixteen blocks, then summed and divided), the reference by its stages
    read one at a time; the arguments agree, so the two results are one number. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' _ hagree
  refine ⟨fun c => fun _ => Cert.PairLoss.meanLoss (Cert.RowArray.img m c) (Cert.RowArray.txt m c) (Cert.RowArray.ids m c), Cert.RowArray.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v41_eq, Cert.RefLoss.ref_eq, (hagree c).1, (hagree c).2.1, (hagree c).2.2]
  rfl

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
